-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x131072x64 : Shape := ⟨3, ![9, 131072, 64]⟩
abbrev S9x64x64 : Shape := ⟨3, ![9, 64, 64]⟩
abbrev S9x64 : Shape := ⟨2, ![9, 64]⟩
abbrev S_ : Shape := ⟨0, ![]⟩

class Facts : Prop where
  bcast_S_S9x131072x64 : S_.BroadcastsInDim S9x131072x64 (![] : Fin 0 → Fin S9x131072x64.rank)
  reducesTo_S9x131072x64_S_d0_1_2 : S9x131072x64.ReducesTo [0, 1, 2] S_
  h_S_ : 0 < S_.numel
  bcast_S_S9x64x64 : S_.BroadcastsInDim S9x64x64 (![] : Fin 0 → Fin S9x64x64.rank)
  reducesTo_S9x64x64_S_d0_1_2 : S9x64x64.ReducesTo [0, 1, 2] S_
  bcast_S_S9x64 : S_.BroadcastsInDim S9x64 (![] : Fin 0 → Fin S9x64.rank)
  reducesTo_S9x64_S_d0_1 : S9x64.ReducesTo [0, 1] S_

variable [Facts]

def fn {F : FTy → Type} [FloatOps F] (main_arg0 : FVec F S9x131072x64 .f32) (main_arg1 : FVec F S9x64x64 .f32) (main_arg2 : FVec F S9x64 .f32) : IVec S_ 1 :=
  let main_v0 : FVec F S9x131072x64 .f32 := Host.absf main_arg0
  let main_cst : FVec F S_ .f32 := constant S_ .f32 0x7F800000#32
  let main_v1 : FVec F S9x131072x64 .f32 := broadcastInDim S9x131072x64 ![] bcast_S_S9x131072x64 main_cst
  let main_v2 : IVec S9x131072x64 1 := cmpf .olt main_v0 main_v1
  let main_c : IVec S_ 1 := constantI S_ 1 1#1
  let main_v3 : IVec S_ 1 := (fun x v => Host.reduce IntOp.andi x v reducesTo_S9x131072x64_S_d0_1_2 h_S_) main_v2 main_c
  let main_v4 : FVec F S9x64x64 .f32 := Host.absf main_arg1
  let main_cst_0 : FVec F S_ .f32 := constant S_ .f32 0x7F800000#32
  let main_v5 : FVec F S9x64x64 .f32 := broadcastInDim S9x64x64 ![] bcast_S_S9x64x64 main_cst_0
  let main_v6 : IVec S9x64x64 1 := cmpf .olt main_v4 main_v5
  let main_c_1 : IVec S_ 1 := constantI S_ 1 1#1
  let main_v7 : IVec S_ 1 := (fun x v => Host.reduce IntOp.andi x v reducesTo_S9x64x64_S_d0_1_2 h_S_) main_v6 main_c_1
  let main_v8 : IVec S_ 1 := andi main_v3 main_v7
  let main_v9 : FVec F S9x64 .f32 := Host.absf main_arg2
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  main_v13
-- ==== Kernel.lean ====
abbrev S9x131072x64 : Shape := ⟨3, ![9, 131072, 64]⟩
abbrev S9x64x64 : Shape := ⟨3, ![9, 64, 64]⟩
abbrev S9x64 : Shape := ⟨2, ![9, 64]⟩
abbrev S9x64x131072 : Shape := ⟨3, ![9, 64, 131072]⟩
abbrev S9x1x64 : Shape := ⟨3, ![9, 1, 64]⟩
abbrev S64x1179648 : Shape := ⟨2, ![64, 1179648]⟩
abbrev S1x64x32768 : Shape := ⟨3, ![1, 64, 32768]⟩
abbrev S1x64x64 : Shape := ⟨3, ![1, 64, 64]⟩
abbrev S1x1x64 : Shape := ⟨3, ![1, 1, 64]⟩
abbrev S64x32768 : Shape := ⟨2, ![64, 32768]⟩
abbrev S64x64 : Shape := ⟨2, ![64, 64]⟩
abbrev S64 : Shape := ⟨1, ![64]⟩
abbrev S64x1 : Shape := ⟨2, ![64, 1]⟩
abbrev S1179648x64 : Shape := ⟨2, ![1179648, 64]⟩

abbrev nBuf : Space → Nat
  | .hbm => 7
  | .vmem => 8
  | .smem => 0
  | _ => 0

abbrev bufTy : (tb : Table) → Fin (tcTables nBuf tb) → BufTy
  | .hbm, ⟨0, _⟩ => ⟨S9x131072x64, .f32⟩
  | .hbm, ⟨1, _⟩ => ⟨S9x64x64, .f32⟩
  | .hbm, ⟨2, _⟩ => ⟨S9x64, .f32⟩
  | .hbm, ⟨3, _⟩ => ⟨S9x64x131072, .f32⟩
  | .hbm, ⟨4, _⟩ => ⟨S9x1x64, .f32⟩
  | .hbm, ⟨5, _⟩ => ⟨S64x1179648, .f32⟩
  | .hbm, ⟨6, _⟩ => ⟨S1179648x64, .f32⟩
  | .local _ .vmem, ⟨0, _⟩ => ⟨S1x64x32768, .f32⟩
  | .local _ .vmem, ⟨1, _⟩ => ⟨S1x64x32768, .f32⟩
  | .local _ .vmem, ⟨2, _⟩ => ⟨S1x64x64, .f32⟩
  | .local _ .vmem, ⟨3, _⟩ => ⟨S1x64x64, .f32⟩
  | .local _ .vmem, ⟨4, _⟩ => ⟨S1x1x64, .f32⟩
  | .local _ .vmem, ⟨5, _⟩ => ⟨S1x1x64, .f32⟩
  | .local _ .vmem, ⟨6, _⟩ => ⟨S64x32768, .f32⟩
  | .local _ .vmem, ⟨7, _⟩ => ⟨S64x32768, .f32⟩
  | _, _ => ⟨S9x131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S9x131072x64_S9x64x131072_0_2_1 : S9x131072x64.Transposes [0, 2, 1] S9x64x131072
  shapeCasts_S9x64_S9x1x64 : S9x64.ShapeCasts S9x1x64
  inb_S1x64x32768_S1x64x32768_0_0_0 : ∀ a, (![0, 0, 0] : Fin 3 → Nat) a + S1x64x32768.size a ≤ S1x64x32768.size a
  h_S1x64x32768 : 0 < S1x64x32768.numel
  shapeCasts_S1x64x32768_S64x32768 : S1x64x32768.ShapeCasts S64x32768
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S64x1 : S64.ShapeCasts S64x1
  broadcasts_S64x1_S64x32768 : S64x1.Broadcasts S64x32768
  inb_S64x32768_S64x32768_0_0 : ∀ a, (![0, 0] : Fin 2 → Nat) a + S64x32768.size a ≤ S64x32768.size a
  h_S64x32768 : 0 < S64x32768.numel
  transposes_S64x1179648_S1179648x64_1_0 : S64x1179648.Transposes [1, 0] S1179648x64
  dot_S64x64_S64x32768_S64x32768_1_0_0_1_n_n_wf : DotDims.WF S64x64 S64x32768 S64x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32768.size a ≤ S9x64x131072.size a
  hwx0_0 : ∀ i : grid0.Coords, EltTy.bits .f32 = 32 ∨ (Rect.block (s := S9x64x131072) S1x64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S9x64x64.size a
  hwx0_1 : ∀ i : grid0.Coords, EltTy.bits .f32 = 32 ∨ (Rect.block (s := S9x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S9x1x64.size a
  hwx0_2 : ∀ i : grid0.Coords, EltTy.bits .f32 = 32 ∨ (Rect.block (s := S9x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32768.size a ≤ S64x1179648.size a
  hwx0_3 : ∀ i : grid0.Coords, EltTy.bits .f32 = 32 ∨ (Rect.block (s := S64x1179648) S64x32768.size (cc0_transform_3 i) (hinb0_3 i)).WholeWords (EltTy.packing .f32)

variable [Facts₀]

def dot_S64x64_S64x32768_S64x32768_1_0_0_1_n_n : DotDims S64x64 S64x32768 S64x32768 where
  lhsContracting := [1]
  rhsContracting := [0]
  lhsNonContracting := [0]
  rhsNonContracting := [1]
  lhsBatch := []
  rhsBatch := []
  wf := dot_S64x64_S64x32768_S64x32768_1_0_0_1_n_n_wf

abbrev win0_0 : Pipeline.Window sig grid0 :=
  Pipeline.Window.ofSpec (Memref.whole main_v0) S1x64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S9x131072x64 : Shape := ⟨3, ![9, 131072, 64]⟩
abbrev S9x64x64 : Shape := ⟨3, ![9, 64, 64]⟩
abbrev S9x64 : Shape := ⟨2, ![9, 64]⟩
abbrev S9x1x64 : Shape := ⟨3, ![9, 1, 64]⟩
abbrev S1179648x64 : Shape := ⟨2, ![1179648, 64]⟩

abbrev nBuf : Space → Nat
  | .hbm => 8
  | .vmem => 0
  | .smem => 0
  | _ => 0

abbrev bufTy : (tb : Table) → Fin (tcTables nBuf tb) → BufTy
  | .hbm, ⟨0, _⟩ => ⟨S9x131072x64, .f32⟩
  | .hbm, ⟨1, _⟩ => ⟨S9x64x64, .f32⟩
  | .hbm, ⟨2, _⟩ => ⟨S9x64, .f32⟩
  | .hbm, ⟨3, _⟩ => ⟨S9x131072x64, .f32⟩
  | .hbm, ⟨4, _⟩ => ⟨S9x1x64, .f32⟩
  | .hbm, ⟨5, _⟩ => ⟨S9x131072x64, .f32⟩
  | .hbm, ⟨6, _⟩ => ⟨S9x131072x64, .f32⟩
  | .hbm, ⟨7, _⟩ => ⟨S1179648x64, .f32⟩
  | _, _ => ⟨S9x131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S9x64_S9x1x64_0_2 : S9x64.BroadcastsInDim S9x1x64 (![0, 2] : Fin 2 → Fin S9x1x64.rank)
  bcast_S9x1x64_S9x131072x64_0_1_2 : S9x1x64.BroadcastsInDim S9x131072x64 (![0, 1, 2] : Fin 3 → Fin S9x131072x64.rank)
  shapeCasts_S9x131072x64_S1179648x64 : S9x131072x64.ShapeCasts S1179648x64
  dot_S9x131072x64_S9x64x64_S9x131072x64_2_2_1_1_0_0_wf : DotDims.WF S9x131072x64 S9x64x64 S9x131072x64 [2] [2] [1] [1] [0] [0]

variable [Facts₀]

def dot_S9x131072x64_S9x64x64_S9x131072x64_2_2_1_1_0_0 : DotDims S9x131072x64 S9x64x64 S9x131072x64 where
  lhsContracting := [2]
  rhsContracting := [2]
  lhsNonContracting := [1]
  rhsNonContracting := [1]
  lhsBatch := [0]
  rhsBatch := [0]
  wf := dot_S9x131072x64_S9x64x64_S9x131072x64_2_2_1_1_0_0_wf

class Facts : Prop extends Facts₀ where

variable [Facts]
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«138777_g40656160424523_retrytranche2_1793_24_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.Body.lean ====
/-
  What one grid step computes, read at an index, at the ideal instance.

  A step holds a [1, 64, 32768] block of the row-minor input (channels by rows), the group's [1, 64, 64] weight matrix and
  its [1, 1, 64] bias. It drops the leading unit axes, multiplies the weight matrix by the input block into a zero
  accumulator, and adds the bias as a column broadcast along the rows. So at (p, q) the stored value is

      (the sum over k < 64 of weights (0, p, k) * block (0, k, q)) + bias (0, 0, p):

  the product into the zero accumulator is the plain sum of products, dropping a unit axis or casting a vector to a
  column does not move an element in row-major order, and a column broadcast reads the column's row.
-/
import proofs.«138777_g40656160424523_retrytranche2_1793_24_alg».proof.Proof.Gen.KernelIdeal.Skeleton
import proofs.«138777_g40656160424523_retrytranche2_1793_24_alg».proof.Proof.LibPlainDot
import proofs.«138777_g40656160424523_retrytranche2_1793_24_alg».proof.Proof.LibRowRead
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The contraction of the step's product: the left operand's axis 1 against the right operand's axis 0. -/
abbrev D := dot_S64x64_S64x32768_S64x32768_1_0_0_1_n_n

theorem lhs0 (i : S64x32768.Idx) (q : D.contr.Idx) : (D.lhsIdx i q 0).val = (i 0).val := by
  unfold DotDims.lhsIdx
  rw [dif_neg (show ¬(0 : Fin S64x64.rank) ∈ D.lhsBatch by decide), dif_pos (show (0 : Fin S64x64.rank) ∈ D.lhsNonContracting by decide)]
  rfl
theorem lhs1 (i : S64x32768.Idx) (q : D.contr.Idx) : (D.lhsIdx i q 1).val = (q ⟨0, by decide⟩).val :=
  D.lhsIdx_val_of_single rfl i q
theorem rhs0 (i : S64x32768.Idx) (q : D.contr.Idx) : (D.rhsIdx i q 0).val = (q ⟨0, by decide⟩).val :=
  D.rhsIdx_val_of_single rfl i q
theorem rhs1 (i : S64x32768.Idx) (q : D.contr.Idx) : (D.rhsIdx i q 1).val = (i 1).val := by
  unfold DotDims.rhsIdx
  rw [dif_neg (show ¬(1 : Fin S64x32768.rank) ∈ D.rhsBatch by decide), dif_pos (show (1 : Fin S64x32768.rank) ∈ D.rhsNonContracting by decide)]
  rfl

/-- Dropping the leading unit axis of the weight block: (p, k) reads (0, p, k). -/
theorem weights_at (x1 : Vec Ideal S1x64x64 .f32) (h : S1x64x64.ShapeCasts S64x64) (p k : Fin 64) :
    shapeCast S64x64 x1 h (ix2 p k) = x1 (ix3 (0 : Fin 1) p k) :=
  shapeCast_apply x1 h _ _ (by
    rw [Shape.rowMajor_val_three, Shape.rowMajor_val_two]
    show (0 * 64 + p.val) * 64 + k.val = p.val * 64 + k.val
    omega)

/-- Dropping the leading unit axis of the input block: (k, q) reads (0, k, q). -/
theorem block_at (x0 : Vec Ideal S1x64x32768 .f32) (h : S1x64x32768.ShapeCasts S64x32768) (k : Fin 64) (q : Fin 32768) :
    shapeCast S64x32768 x0 h (ix2 k q) = x0 (ix3 (0 : Fin 1) k q) :=
  shapeCast_apply x0 h _ _ (by
    rw [Shape.rowMajor_val_three, Shape.rowMajor_val_two]
    show (0 * 64 + k.val) * 32768 + q.val = k.val * 32768 + q.val
    omega)

/-- Dropping both unit axes of the bias block: p reads (0, 0, p). -/
theorem bias_at (x2 : Vec Ideal S1x1x64 .f32) (h : S1x1x64.ShapeCasts S64) (p : Fin 64) :
    shapeCast S64 x2 h (ix1 p) = x2 (ix3 (0 : Fin 1) (0 : Fin 1) p) :=
  shapeCast_apply x2 h _ _ (by
    rw [Shape.rowMajor_val_three, Shape.rowMajor_val_one]
    show (0 * 1 + 0) * 64 + p.val = p.val
    omega)

/-- The value a step stores, at (p, q). -/
theorem stored_at (x0 : Vec Ideal S1x64x32768 .f32) (x1 : Vec Ideal S1x64x64 .f32) (x2 : Vec Ideal S1x1x64 .f32)
    (p : Fin 64) (q : Fin 32768) :
    k0_pay1 (F := Ideal) x0 x1 x2 (ix2 p q)
      = (∑ k : Fin 64, x1 (ix3 (0 : Fin 1) p k) * x0 (ix3 (0 : Fin 1) k q)) + x2 (ix3 (0 : Fin 1) (0 : Fin 1) p) := by
  unfold k0_pay1
  refine (addf_apply _ _ _).trans (congrArg₂ (· + ·) ?_ ?_)
  · refine (Cert.Lib.PlainDot.matmul_zero_apply D rfl rfl lhs0 lhs1 rhs0 rhs1 none _ _ p q).trans
      (Finset.sum_congr rfl fun k _ => ?_)
    exact congrArg₂ (· * ·) (weights_at x1 _ p k) (block_at x0 _ k q)
  · exact (Cert.Lib.RowRead.broadcastTo_a1_ab_apply _ _ p q).trans
      ((Cert.Lib.RowRead.shapeCast_a_a1_apply _ _ p (0 : Fin 1)).trans (bias_at x2 _ p))

end Cert.KernelIdeal.Body

end
-- ==== Proof.Spec.lean ====
/-
  The grouped affine map, as a function of its three arrays.

  Nine groups; group g has an input block x[g] of 131072 rows by 64 channels, a 64-by-64 weight matrix w[g] and a bias
  vector b[g]. The entry for row r and output channel o of group g is

      (the sum over k < 64 of w[g, o, k] * x[g, r, k]) + b[g, o].

  The result stacks the groups: stacked row R = 131072 * g + r holds group g's row r. The same numbers written channel-major
  (a 64 by 1179648 array whose column R is stacked row R) over the row-minor input xt[g, k, r] = x[g, r, k] and the bias kept
  with a unit middle axis is what a blocked evaluation produces; the two are related by reading the layouts.
-/
import Idealize.ShloMosaic.PureOps.Ideal
import Idealize.ShloMosaic.Lib.ValueIdx

noncomputable section

namespace Cert.Affine

open Idealize.ShloMosaic Idealize.ShloMosaic.ValueIdx

/-- Row r, output channel o of group g. -/
def entry (x : (⟨3, ![9, 131072, 64]⟩ : Shape).Idx → EReal) (w : (⟨3, ![9, 64, 64]⟩ : Shape).Idx → EReal)
    (b : (⟨2, ![9, 64]⟩ : Shape).Idx → EReal) (g : Fin 9) (r : Fin 131072) (o : Fin 64) : EReal :=
  (∑ k : Fin 64, w (ix3 g o k) * x (ix3 g r k)) + b (ix2 g o)

/-- The group a stacked row belongs to. -/
def grp (R : Fin 1179648) : Fin 9 := ⟨R.val / 131072, by have := R.isLt; omega⟩
/-- Its row inside the group. -/
def row (R : Fin 1179648) : Fin 131072 := ⟨R.val % 131072, by omega⟩

/-- The stacked result, [1179648, 64]. -/
def stacked (x : (⟨3, ![9, 131072, 64]⟩ : Shape).Idx → EReal) (w : (⟨3, ![9, 64, 64]⟩ : Shape).Idx → EReal)
    (b : (⟨2, ![9, 64]⟩ : Shape).Idx → EReal) : (⟨2, ![1179648, 64]⟩ : Shape).Idx → EReal :=
  fun i => entry x w b (grp (i 0)) (row (i 0)) (i 1)

/-- The channel-major result, [64, 1179648], over the row-minor input and the bias with a unit middle axis. -/
def channelMajor (xt : (⟨3, ![9, 64, 131072]⟩ : Shape).Idx → EReal) (w : (⟨3, ![9, 64, 64]⟩ : Shape).Idx → EReal)
    (b3 : (⟨3, ![9, 1, 64]⟩ : Shape).Idx → EReal) : (⟨2, ![64, 1179648]⟩ : Shape).Idx → EReal :=
  fun i => (∑ k : Fin 64, w (ix3 (grp (i 1)) (i 0) k) * xt (ix3 (grp (i 1)) k (row (i 1)))) + b3 (ix3 (grp (i 1)) (0 : Fin 1) (i 0))

/-- When xt is x with its last two axes exchanged and b3 is b with a unit axis inserted, the channel-major array at
    (o, R) is the entry of stacked row R and channel o. -/
theorem channelMajor_eq_entry (x : (⟨3, ![9, 131072, 64]⟩ : Shape).Idx → EReal) (w : (⟨3, ![9, 64, 64]⟩ : Shape).Idx → EReal)
    (b : (⟨2, ![9, 64]⟩ : Shape).Idx → EReal) (xt : (⟨3, ![9, 64, 131072]⟩ : Shape).Idx → EReal)
    (b3 : (⟨3, ![9, 1, 64]⟩ : Shape).Idx → EReal)
    (hx : ∀ (g : Fin 9) (k : Fin 64) (r : Fin 131072), xt (ix3 g k r) = x (ix3 g r k))
    (hb : ∀ (g : Fin 9) (o : Fin 64), b3 (ix3 g (0 : Fin 1) o) = b (ix2 g o))
    (o : Fin 64) (R : Fin 1179648) :
    channelMajor xt w b3 (ix2 o R) = entry x w b (grp R) (row R) o := by
  show (∑ k : Fin 64, w (ix3 (grp R) o k) * xt (ix3 (grp R) k (row R))) + b3 (ix3 (grp R) (0 : Fin 1) o) = _
  unfold entry
  rw [hb]
  exact congrArg (· + b (ix2 (grp R) o)) (Finset.sum_congr rfl fun k _ => by rw [hx])

end Cert.Affine

end
-- ==== Proof.Blocks.lean ====
/-
  From grid steps to the whole channel-major array.

  The grid has 9 * 4 steps; step (g, n) holds rows 32768 n .. 32768 n + 32767 of group g. Its input block is block
  (g, 0, n) of the row-minor input, its weights and bias are block (g, 0, 0) of theirs, and it writes block (0, 4 g + n) of
  the [64, 1179648] output: columns 32768 (4 g + n) + q, which are stacked rows 131072 g + (32768 n + q) — group g,
  row 32768 n + q. So what a step writes back is its block of the channel-major map of the arrays the region reads, and
  since the 36 column blocks tile the output, the output array ends holding that map.
-/
import proofs.«138777_g40656160424523_retrytranche2_1793_24_alg».proof.Proof.Gen.KernelIdeal.Frame
import proofs.«138777_g40656160424523_retrytranche2_1793_24_alg».proof.Proof.Body
import proofs.«138777_g40656160424523_retrytranche2_1793_24_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Affine

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The value stored at (j 0, j 1) by the step of group g and row block n is the channel-major map at the array index
    i = (j 0, 32768 (4 g + n) + j 1), when the step's blocks hold the arrays' entries of group g and rows
    32768 n + q. -/
theorem step_value (x0 : Vec Ideal S1x64x32768 .f32) (x1 : Vec Ideal S1x64x64 .f32) (x2 : Vec Ideal S1x1x64 .f32)
    (xt : S9x64x131072.Idx → EReal) (w : S9x64x64.Idx → EReal) (b3 : S9x1x64.Idx → EReal) (g : Fin 9) (n : Fin 4)
    (h0 : ∀ (k : Fin 64) (q : Fin 32768) (r : Fin 131072), r.val = n.val * 32768 + q.val → x0 (ix3 (0 : Fin 1) k q) = xt (ix3 g k r))
    (h1 : ∀ (p k : Fin 64), x1 (ix3 (0 : Fin 1) p k) = w (ix3 g p k))
    (h2 : ∀ (p : Fin 64), x2 (ix3 (0 : Fin 1) (0 : Fin 1) p) = b3 (ix3 g (0 : Fin 1) p))
    (j : S64x32768.Idx) (i : S64x1179648.Idx) (hi0 : (i 0).val = (j 0).val)
    (hi1 : (i 1).val = (g.val * 4 + n.val) * 32768 + (j 1).val) :
    k0_pay1 (F := Ideal) x0 x1 x2 j = channelMajor xt w b3 i := by
  obtain ⟨p, q, rfl⟩ : ∃ (p : Fin 64) (q : Fin 32768), j = ix2 p q := ⟨j 0, j 1, eq_ix2 j⟩
  obtain ⟨o, R, rfl⟩ : ∃ (o : Fin 64) (R : Fin 1179648), i = ix2 o R := ⟨i 0, i 1, eq_ix2 i⟩
  have ho : o = p := Fin.ext hi0
  have hR : R.val = (g.val * 4 + n.val) * 32768 + q.val := hi1
  subst ho
  have hn := n.isLt
  have hq := q.isLt
  have hg : grp R = g := Fin.ext (by show R.val / 131072 = g.val; omega)
  have hr : (row R).val = n.val * 32768 + q.val := by show R.val % 131072 = _; omega
  rw [Body.stored_at]
  show _ = (∑ k : Fin 64, w (ix3 (grp R) o k) * xt (ix3 (grp R) k (row R))) + b3 (ix3 (grp R) (0 : Fin 1) o)
  rw [hg, h2]
  exact congrArg (· + b3 (ix3 g (0 : Fin 1) o)) (Finset.sum_congr rfl fun k _ => by rw [h1, h0 k q (row R) hr])

/-- The block indices of the four windows at a step, related (decided over the 36 steps): the weights' and the bias's
    block is the group's, the output's column block is 4 * group + row block. -/
theorem idx_facts : ∀ t : Fin cfg0.N,
    win0_0.index t (1 : Fin 3) = 0
    ∧ win0_1.index t (0 : Fin 3) = win0_0.index t (0 : Fin 3) ∧ win0_1.index t (1 : Fin 3) = 0 ∧ win0_1.index t (2 : Fin 3) = 0
    ∧ win0_2.index t (0 : Fin 3) = win0_0.index t (0 : Fin 3) ∧ win0_2.index t (1 : Fin 3) = 0 ∧ win0_2.index t (2 : Fin 3) = 0
    ∧ win0_3.index t (0 : Fin 2) = 0
    ∧ win0_3.index t (1 : Fin 2) = win0_0.index t (0 : Fin 3) * 4 + win0_0.index t (2 : Fin 3)
    ∧ win0_0.index t (0 : Fin 3) < 9 ∧ win0_0.index t (2 : Fin 3) < 4 :=
  (by decide +kernel : ∀ t : Fin grid0.N, _)

/-- Every one of the 36 column blocks of the output is some step's. -/
theorem idx_onto : ∀ q : Fin 36, ∃ t : Fin cfg0.N, win0_3.index t = ![0, q.val] :=
  (by decide +kernel : ∀ q : Fin 36, ∃ t : Fin grid0.N, win0_3.index t = ![0, q.val])

/-- What step t writes back is its block of the channel-major map of the arrays the region reads. -/
theorem flushed_eq (c : Dev nD) (t : Fin cfg0.N) :
    (dats m 0 c).flushed 3 t
      = ((cfg0.win 3).blk t).view.read (Elt Ideal) (channelMajor (V m c main_v0) (V m c main_arg1) (V m c main_v1)) := by
  show (cfg0.win 3).cut (grid0.coords t) ((dats m 0 c).after 3 t) = _
  rw [after0_3]
  unfold out0_3
  rw [View.canon_unit_zero hz2]
  simp only [View.ld_unit_zero (S := S1x64x32768) hz3, View.ld_unit_zero (S := S1x64x64) hz3, View.ld_unit_zero (S := S1x1x64) hz3]
  obtain ⟨e01, e10, e11, e12, e20, e21, e22, e30, e31, lg, ln⟩ := idx_facts t
  funext j
  show k0_pay1 (F := Ideal) (iblk m c 0 t) (iblk m c 1 t) (iblk m c 2 t) j
    = channelMajor (V m c main_v0) (V m c main_arg1) (V m c main_v1) (((cfg0.win 3).blk t).view.emb j)
  refine step_value (iblk m c 0 t) (iblk m c 1 t) (iblk m c 2 t) (V m c main_v0) (V m c main_arg1) (V m c main_v1)
    ⟨win0_0.index t (0 : Fin 3), lg⟩ ⟨win0_0.index t (2 : Fin 3), ln⟩ ?_ ?_ ?_ j (((cfg0.win 3).blk t).view.emb j) ?_ ?_
  · intro k q r hr
    show V m c main_v0 (((cfg0.win 0).blk t).view.emb (ix3 (0 : Fin 1) k q)) = V m c main_v0 (ix3 _ k r)
    refine congrArg (V m c main_v0) (funext fun a => Fin.ext ?_)
    match a with
    | ⟨0, _⟩ => show win0_0.index t (0 : Fin 3) * 1 + 1 * 0 = win0_0.index t (0 : Fin 3); omega
    | ⟨1, _⟩ => show win0_0.index t (1 : Fin 3) * 64 + 1 * k.val = k.val; omega
    | ⟨2, _⟩ => show win0_0.index t (2 : Fin 3) * 32768 + 1 * q.val = r.val; have : r.val = win0_0.index t (2 : Fin 3) * 32768 + q.val := hr; omega
  · intro p k
    show V m c main_arg1 (((cfg0.win 1).blk t).view.emb (ix3 (0 : Fin 1) p k)) = V m c main_arg1 (ix3 _ p k)
    refine congrArg (V m c main_arg1) (funext fun a => Fin.ext ?_)
    match a with
    | ⟨0, _⟩ => show win0_1.index t (0 : Fin 3) * 1 + 1 * 0 = win0_0.index t (0 : Fin 3); omega
    | ⟨1, _⟩ => show win0_1.index t (1 : Fin 3) * 64 + 1 * p.val = p.val; omega
    | ⟨2, _⟩ => show win0_1.index t (2 : Fin 3) * 64 + 1 * k.val = k.val; omega
  · intro p
    show V m c main_v1 (((cfg0.win 2).blk t).view.emb (ix3 (0 : Fin 1) (0 : Fin 1) p)) = V m c main_v1 (ix3 _ (0 : Fin 1) p)
    refine congrArg (V m c main_v1) (funext fun a => Fin.ext ?_)
    match a with
    | ⟨0, _⟩ => show win0_2.index t (0 : Fin 3) * 1 + 1 * 0 = win0_0.index t (0 : Fin 3); omega
    | ⟨1, _⟩ => show win0_2.index t (1 : Fin 3) * 1 + 1 * 0 = 0; omega
    | ⟨2, _⟩ => show win0_2.index t (2 : Fin 3) * 64 + 1 * p.val = p.val; omega
  · show win0_3.index t (0 : Fin 2) * 64 + 1 * (j 0).val = (j 0).val; omega
  · show win0_3.index t (1 : Fin 2) * 32768 + 1 * (j 1).val = (win0_0.index t (0 : Fin 3) * 4 + win0_0.index t (2 : Fin 3)) * 32768 + (j 1).val; omega

/-- An index of the output array is in step t's block iff each coordinate is in the block's range on its axis. -/
theorem mem_blk (t : Fin cfg0.N) (i : S64x1179648.Idx) :
    i ∈ ((cfg0.win 3).blk t).view.set ↔ ∀ a : Fin 2, win0_3.index t a * S64x32768.size a ≤ (i a).val ∧ (i a).val < win0_3.index t a * S64x32768.size a + S64x32768.size a := by
  show i ∈ ((View.whole main_v2).slice (win0_3.rect t)).set ↔ _
  rw [View.set_slice_whole, Rect.mem_set_unit]
  exact Iff.rfl

/-- Every index of the output array is in the block of the step whose column block is (i 1) / 32768. -/
theorem cover (i : S64x1179648.Idx) : ∃ t : Fin cfg0.N, (cfg0.win 3).flush t = true ∧ i ∈ ((cfg0.win 3).blk t).view.set := by
  have hi0 : (i 0).val < 64 := (i 0).isLt
  have hi1 : (i 1).val < 1179648 := (i 1).isLt
  obtain ⟨t, ht⟩ := idx_onto ⟨(i 1).val / 32768, by omega⟩
  have q0 : win0_3.index t (0 : Fin 2) = 0 := congrFun ht 0
  have q1 : win0_3.index t (1 : Fin 2) = (i 1).val / 32768 := congrFun ht 1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 32768 ≤ (i 1).val ∧ (i 1).val < win0_3.index t (1 : Fin 2) * 32768 + 32768; omega

/-- The output array after the region: the channel-major map of the arrays the region reads. -/
theorem final (c : Dev nD) :
    (dats m 0 c).arrAt 3 cfg0.N = channelMajor (V m c main_v0) (V m c main_arg1) (V m c main_v1) :=
  (dats m 0 c).arrAt_eq_of_cover 3 _ (fun t _ => flushed_eq m c t) cover

end Cert.KernelIdeal.Blocks

end
-- ==== Proof.Host.lean ====
/-
  The host lines around the region, read at an index.

  Before the region the input is transposed to row-minor form, xt[g, k, r] = x[g, r, k], and the bias gets a unit middle
  axis, b3[g, 0, o] = b[g, o]; the weights are passed as they are. After the region the channel-major output is
  transposed: the result at (R, o) is the region's output at (o, R).
-/
import proofs.«138777_g40656160424523_retrytranche2_1793_24_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostLines

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ)

/-- The region finds the transposed input in its first window's array. -/
theorem input_eq (c : Dev nD) :
    (V m c main_v0 : S9x64x131072.Idx → EReal)
      = transpose S9x64x131072 [0, 2, 1] (m ((c : Thread nD τ).loc main_arg0)) transposes_S9x131072x64_S9x64x131072_0_2_1 := by
  show StableHlo.after hostOps0 (fun b => m (c, b)) (Proc.devRef .tc main_v0) = _
  after_results <;> rfl

/-- The row-minor input at (g, k, r) is the input at (g, r, k). -/
theorem input_at (c : Dev nD) (g : Fin 9) (k : Fin 64) (r : Fin 131072) :
    V m c main_v0 (ix3 g k r) = m ((c : Thread nD τ).loc main_arg0) (ix3 g r k) := by
  rw [input_eq]
  exact transpose_apply [0, 2, 1] _ transposes_S9x131072x64_S9x64x131072_0_2_1 (ix3 g k r) (ix3 g r k) (fun b => by
    match b with
    | ⟨0, _⟩ => rfl
    | ⟨1, _⟩ => rfl
    | ⟨2, _⟩ => rfl)

/-- The region finds the bias with its unit middle axis in its third window's array. -/
theorem bias_eq (c : Dev nD) :
    (V m c main_v1 : S9x1x64.Idx → EReal)
      = shapeCast S9x1x64 (m ((c : Thread nD τ).loc main_arg2)) shapeCasts_S9x64_S9x1x64 := by
  show StableHlo.after hostOps0 (fun b => m (c, b)) (Proc.devRef .tc main_v1) = _
  after_results <;> rfl

/-- The reshaped bias at (g, 0, o) is the bias at (g, o). -/
theorem bias_at (c : Dev nD) (g : Fin 9) (o : Fin 64) :
    V m c main_v1 (ix3 g (0 : Fin 1) o) = m ((c : Thread nD τ).loc main_arg2) (ix2 g o) := by
  rw [bias_eq]
  exact shapeCast_apply _ shapeCasts_S9x64_S9x1x64 (ix3 g (0 : Fin 1) o) (ix2 g o) (by
    rw [Shape.rowMajor_val_two, Shape.rowMajor_val_three]
    show g.val * 64 + o.val = (g.val * 1 + 0) * 64 + o.val
    omega)

/-- The program's result is the transpose of the region's output array. -/
theorem result_eq (c : Dev nD) :
    (Pipeline.afterTail₀ cfgs (dats m) 0 (V0 m) [hostOps1] c main_v3 : S1179648x64.Idx → EReal)
      = transpose S1179648x64 [1, 0] ((dats m 0 c).arrAt 3 cfg0.N) transposes_S64x1179648_S1179648x64_1_0 := by
  unfold Pipeline.afterTail₀
  show StableHlo.after hostOps1 _ (Proc.devRef .tc main_v3) = _
  after_results
  exact congrArg (fun a => transpose S1179648x64 [1, 0] a transposes_S64x1179648_S1179648x64_1_0)
    (Pipeline.withArrays_arr spec0 launch0.win.arr_inj c (V0 m c) (fun w => (dats m 0 c).arrAt w cfg0.N) 3)

/-- The result at (R, o) is the region's output at (o, R). -/
theorem result_at (c : Dev nD) (R : Fin 1179648) (o : Fin 64) :
    Pipeline.afterTail₀ cfgs (dats m) 0 (V0 m) [hostOps1] c main_v3 (ix2 R o) = (dats m 0 c).arrAt 3 cfg0.N (ix2 o R) := by
  rw [result_eq]
  exact transpose_apply [1, 0] _ transposes_S64x1179648_S1179648x64_1_0 (ix2 R o) (ix2 o R) (fun b => by
    match b with
    | ⟨0, _⟩ => rfl
    | ⟨1, _⟩ => rfl)

end Cert.KernelIdeal.HostLines

end
-- ==== Proof.KernelValue.lean ====
/-
  The kernel program's run, with its result named.

  The region's output array is the channel-major map of the transposed input, the weights and the reshaped bias; the
  line after the region transposes it. Reading the three layouts, the program's result at (R, o) is the entry of stacked
  row R and channel o: the result is the stacked grouped affine map of the three arguments, which the run leaves
  unchanged.
-/
import proofs.«138777_g40656160424523_retrytranche2_1793_24_alg».proof.Proof.Blocks
import proofs.«138777_g40656160424523_retrytranche2_1793_24_alg».proof.Proof.Host

noncomputable section

namespace Cert.KernelIdeal.KernelValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Affine

variable (m : (ℓ : Loc nD τ sig) → Buf (Elt Ideal) ℓ) (ρ : Dev nD → PrngReg)

/-- What the lines after the region leave in the result buffer: the stacked map of the arguments. -/
theorem result_stacked (c : Dev nD) :
    Pipeline.afterTail₀ cfgs (dats m) 0 (V0 m) [hostOps1] c main_v3
      = stacked (m ((c : Thread nD τ).loc main_arg0)) (m ((c : Thread nD τ).loc main_arg1)) (m ((c : Thread nD τ).loc main_arg2)) := by
  funext i
  obtain ⟨R, o, rfl⟩ : ∃ (R : Fin 1179648) (o : Fin 64), i = ix2 R o := ⟨i 0, i 1, eq_ix2 i⟩
  rw [HostLines.result_at, Blocks.final, V_main_arg1]
  exact channelMajor_eq_entry (m ((c : Thread nD τ).loc main_arg0)) (m ((c : Thread nD τ).loc main_arg1))
    (m ((c : Thread nD τ).loc main_arg2)) (V m c main_v0) (V m c main_v1) (HostLines.input_at m c) (HostLines.bias_at m c) o R

/-- Every weakly fair execution of the kernel program terminates with the result buffer at the stacked map of the
    arguments and the arguments unchanged. -/
theorem run : θ_run defs (onTc (τ := τ) (main (F := Ideal))) ⟨m, fun _ => 0, ρ⟩ (fun r => ∀ c : Dev nD,
      r.2.mem ((c.tc : Thread nD τ).loc main_v3)
        = stacked (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_stacked m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference computes the stacked grouped affine map.

  The reference contracts the inputs' channel axis against the weights' input-channel axis group by group, adds the bias
  broadcast over the rows, and flattens [9, 131072, 64] to [1179648, 64]. Read at (R, o): the flattening sends row-major
  position R * 64 + o back to group R / 131072, row R % 131072, channel o; the contraction there is the sum over k of
  x[g, r, k] * w[g, o, k]; the bias read is b[g, o]. Multiplication of extended reals commutes, so this is the entry of
  the specification.
-/
import proofs.«138777_g40656160424523_retrytranche2_1793_24_alg».proof.Proof.Gen.ReferenceIdeal.Read
import proofs.«138777_g40656160424523_retrytranche2_1793_24_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Affine

/-- The reference's result, as a function of its three arguments, is the stacked map. -/
theorem result_eq (x0 : S9x131072x64.Idx → EReal) (x1 : S9x64x64.Idx → EReal) (x2 : S9x64.Idx → EReal) :
    val_main_v4 (F := Ideal) x0 x1 x2 = stacked x0 x1 x2 := by
  funext i
  have h0 : (i 0).val < 1179648 := (i 0).isLt
  have h1 : (i 1).val < 64 := (i 1).isLt
  have el : ∀ k : Fin 64, lidx_main_v0 (idx_main_v4 i) k = ix3 (grp (i 0)) (row (i 0)) k := fun k => funext fun a => Fin.ext (by
    match a with
    | ⟨0, _⟩ => show ((i 0).val * 64 + (i 1).val) / 8388608 = (i 0).val / 131072; omega
    | ⟨1, _⟩ => show ((i 0).val * 64 + (i 1).val) / 64 % 131072 = (i 0).val % 131072; omega
    | ⟨2, _⟩ => rfl)
  have er : ∀ k : Fin 64, ridx_main_v0 (idx_main_v4 i) k = ix3 (grp (i 0)) (i 1) k := fun k => funext fun a => Fin.ext (by
    match a with
    | ⟨0, _⟩ => show ((i 0).val * 64 + (i 1).val) / 8388608 = (i 0).val / 131072; omega
    | ⟨1, _⟩ => show ((i 0).val * 64 + (i 1).val) % 64 = (i 1).val; omega
    | ⟨2, _⟩ => rfl)
  have eb : idx_main_v1 (idx_main_v2 (idx_main_v4 i)) = ix2 (grp (i 0)) (i 1) := funext fun a => Fin.ext (by
    match a with
    | ⟨0, _⟩ => show ((i 0).val * 64 + (i 1).val) / 8388608 = (i 0).val / 131072; omega
    | ⟨1, _⟩ => show ((i 0).val * 64 + (i 1).val) % 64 = (i 1).val; omega)
  rw [val_main_v4_apply, val_main_v3_apply, val_main_v0_apply, val_main_v2_apply, val_main_v1_apply, eb]
  show (∑ k : Fin 64, x0 (lidx_main_v0 (idx_main_v4 i) k) * x1 (ridx_main_v0 (idx_main_v4 i) k)) + x2 (ix2 (grp (i 0)) (i 1)) = _
  unfold stacked entry
  refine congrArg (· + x2 (ix2 (grp (i 0)) (i 1))) (Finset.sum_congr rfl fun k _ => ?_)
  rw [el, er]
  exact mul_comm _ _

end Cert.ReferenceIdeal.RefValue

end
-- ==== Proof.lean ====
/-
  Nine grouped affine maps, stacked: a blocked channel-major evaluation against the batched contraction.

  Both programs take an input x of shape [9, 131072, 64], weights w of shape [9, 64, 64] and a bias b of shape [9, 64],
  and return the [1179648, 64] array whose row 131072 g + r, channel o, is

      (the sum over k < 64 of w[g, o, k] * x[g, r, k]) + b[g, o].

  The kernel program transposes x to row-minor form, gives b a unit middle axis, and runs 9 * 4 grid steps; step (g, n)
  multiplies the group's weight matrix by the [64, 32768] block of rows 32768 n .. of group g into a zero accumulator,
  adds the bias as a column, and writes column block 4 g + n of a [64, 1179648] array, which the program then transposes.
  The reference contracts x against w group by group, adds the broadcast bias and flattens the group and row axes.

  On the extended reals the two agree entry by entry: a product into a zero accumulator is the plain sum of products,
  the factors of each product commute, and every layout operation only renames indices. No finiteness of the inputs is
  used. The kernel's frames are the generated ones, the reference's frame is its generated run with the result dropped,
  and no operation of the kernel is rewritten by the idealization, so there is nothing to preserve.
-/
import proofs.«138777_g40656160424523_retrytranche2_1793_24_alg».proof.Defs
import proofs.«138777_g40656160424523_retrytranche2_1793_24_alg».proof.Proof.Gen.Kernel
import proofs.«138777_g40656160424523_retrytranche2_1793_24_alg».proof.Proof.Gen.Kernel.Skeleton
import proofs.«138777_g40656160424523_retrytranche2_1793_24_alg».proof.Proof.Gen.Kernel.Launch
import proofs.«138777_g40656160424523_retrytranche2_1793_24_alg».proof.Proof.Gen.Kernel.Points
import proofs.«138777_g40656160424523_retrytranche2_1793_24_alg».proof.Proof.Gen.Kernel.Frame
import proofs.«138777_g40656160424523_retrytranche2_1793_24_alg».proof.Proof.Gen.KernelIdeal
import proofs.«138777_g40656160424523_retrytranche2_1793_24_alg».proof.Proof.Gen.KernelIdeal.Skeleton
import proofs.«138777_g40656160424523_retrytranche2_1793_24_alg».proof.Proof.Gen.KernelIdeal.Launch
import proofs.«138777_g40656160424523_retrytranche2_1793_24_alg».proof.Proof.Gen.KernelIdeal.Points
import proofs.«138777_g40656160424523_retrytranche2_1793_24_alg».proof.Proof.Gen.KernelIdeal.Frame
import proofs.«138777_g40656160424523_retrytranche2_1793_24_alg».proof.Proof.Gen.ReferenceIdeal
import proofs.«138777_g40656160424523_retrytranche2_1793_24_alg».proof.Proof.Gen.ReferenceIdeal.Run
import proofs.«138777_g40656160424523_retrytranche2_1793_24_alg».proof.Proof.Gen.ReferenceIdeal.Read
import proofs.«138777_g40656160424523_retrytranche2_1793_24_alg».proof.Proof.Gen.Pre_finite_inputs
import proofs.«138777_g40656160424523_retrytranche2_1793_24_alg».proof.Proof.KernelValue
import proofs.«138777_g40656160424523_retrytranche2_1793_24_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the stacked grouped affine map of the (agreeing) arguments in their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
